-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S512x51 : Shape := ⟨2, ![512, 51]⟩
abbrev S51 : Shape := ⟨1, ![51]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S512x51 : S_.BroadcastsInDim S512x51 (![] : Fin 0 → Fin S512x51.rank)
  reducesTo_S512x51_S_d0_1 : S512x51.ReducesTo [0, 1] S_
  bcast_S_S51 : S_.BroadcastsInDim S51 (![] : Fin 0 → Fin S51.rank)
  reducesTo_S51_S_d0 : S51.ReducesTo [0] S_

variable [Facts]

def fn_part2 {F : FTy → Type} [FloatOps F] (main_arg8 : FVec F S256x256 .f32) (main_arg9 : FVec F S512x51 .f32) (main_arg10 : FVec F S51 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S512x51 .f32 := Host.absf main_arg9
  let main_cst_14 : FVec F S_ .f32 := constant S_ .f32 0x7F800000#32
  let main_v40 : FVec F S512x51 .f32 := broadcastInDim S512x51 ![] bcast_S_S512x51 main_cst_14
  let main_v41 : IVec S512x51 1 := cmpf .olt main_v39 main_v40
  let main_c_15 : IVec S_ 1 := constantI S_ 1 1#1
  let main_v42 : IVec S_ 1 := (fun x v => Host.reduce IntOp.andi x v reducesTo_S512x51_S_d0_1 h_S_) main_v41 main_c_15
  let main_v43 : IVec S_ 1 := andi main_v38 main_v42
  let main_v44 : FVec F S51 .f32 := Host.absf main_arg10
  let main_cst_16 : FVec F S_ .f32 := constant S_ .f32 0x7F800000#32
  let main_v45 : FVec F S51 .f32 := broadcastInDim S51 ![] bcast_S_S51 main_cst_16
  let main_v46 : IVec S51 1 := cmpf .olt main_v44 main_v45
  let main_c_17 : IVec S_ 1 := constantI S_ 1 1#1
  let main_v47 : IVec S_ 1 := (fun x v => Host.reduce IntOp.andi x v reducesTo_S51_S_d0 h_S_) main_v46 main_c_17
  let main_v48 : IVec S_ 1 := andi main_v43 main_v47
  main_v48

def fn_part1 {F : FTy → Type} [FloatOps F] (main_arg5 : FVec F S128x256 .f32) (main_arg6 : FVec F S256x256 .f32) (main_arg7 : FVec F S256 .f32) (main_arg8 : FVec F S256x256 .f32) (main_arg9 : FVec F S512x51 .f32) (main_arg10 : FVec F S51 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S800000 .f32) (main_arg3 : FVec F S128x256 .f32) (main_arg4 : FVec F S256 .f32) (main_arg5 : FVec F S128x256 .f32) (main_arg6 : FVec F S256x256 .f32) (main_arg7 : FVec F S256 .f32) (main_arg8 : FVec F S256x256 .f32) (main_arg9 : FVec F S512x51 .f32) (main_arg10 : FVec F S51 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S512x51 : Shape := ⟨2, ![512, 51]⟩
abbrev S51 : Shape := ⟨1, ![51]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S2000x128 : Shape := ⟨2, ![2000, 128]⟩
abbrev S2000x256 : Shape := ⟨2, ![2000, 256]⟩
abbrev S1x256 : Shape := ⟨2, ![1, 256]⟩
abbrev S800000x256 : Shape := ⟨2, ![800000, 256]⟩
abbrev S256x51 : Shape := ⟨2, ![256, 51]⟩
abbrev S50000x51 : Shape := ⟨2, ![50000, 51]⟩
abbrev S2000x51 : Shape := ⟨2, ![2000, 51]⟩
abbrev S1x51 : Shape := ⟨2, ![1, 51]⟩

abbrev nBuf : Space → Nat
  | .hbm => 52
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x256, .f32⟩
  | .hbm, ⟨4, _⟩ => ⟨S256, .f32⟩
  | .hbm, ⟨5, _⟩ => ⟨S128x256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S512x51, .f32⟩
  | .hbm, ⟨10, _⟩ => ⟨S51, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S800000x1, .f32⟩
  | .hbm, ⟨25, _⟩ => ⟨S800000x128, .f32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S50000x256, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x256, .f32⟩
  | .hbm, ⟨41, _⟩ => ⟨S800000x1, .f32⟩
  | .hbm, ⟨42, _⟩ => ⟨S800000x256, .f32⟩
  | .hbm, ⟨43, _⟩ => ⟨S800000x256, .f32⟩
  | .hbm, ⟨44, _⟩ => ⟨S_, .f32⟩
  | .hbm, ⟨45, _⟩ => ⟨S50000x256, .f32⟩
  | .hbm, ⟨46, _⟩ => ⟨S800000x1, .i32⟩
  | .hbm, ⟨47, _⟩ => ⟨S50000x256, .f32⟩
  | .hbm, ⟨48, _⟩ => ⟨S50000x256, .f32⟩
  | .hbm, ⟨49, _⟩ => ⟨S256x51, .f32⟩
  | .hbm, ⟨50, _⟩ => ⟨S256x51, .f32⟩
  | .hbm, ⟨51, _⟩ => ⟨S50000x51, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S256x256, .f32⟩
  | .local _ .vmem, ⟨15, _⟩ => ⟨S256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x51, .f32⟩
  | .local _ .vmem, ⟨23, _⟩ => ⟨S256x51, .f32⟩
  | .local _ .vmem, ⟨24, _⟩ => ⟨S51, .f32⟩
  | .local _ .vmem, ⟨25, _⟩ => ⟨S2000x51, .f32⟩
  | .local _ .vmem, ⟨26, _⟩ => ⟨S2000x51, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_1 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x51 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x51 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S51 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x51 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  slices_S512x51_S256x51_0_0 : S512x51.Slices ![0, 0] S256x51
  slices_S512x51_S256x51_256_0 : S512x51.Slices ![256, 0] S256x51
  inb_S256x51_S256x51_0_0 : ∀ a, (![0, 0] : Fin 2 → Nat) a + S256x51.size a ≤ S256x51.size a
  h_S256x51 : 0 < S256x51.numel
  shapeCasts_S256x51_S256x51 : S256x51.ShapeCasts S256x51
  inb_S51_S51_0 : ∀ a, (![0] : Fin 1 → Nat) a + S51.size a ≤ S51.size a
  h_S51 : 0 < S51.numel
  shapeCasts_S51_S1x51 : S51.ShapeCasts S1x51
  broadcasts_S1x51_S2000x51 : S1x51.Broadcasts S2000x51
  inb_S2000x51_S2000x51_0_0 : ∀ a, (![0, 0] : Fin 2 → Nat) a + S2000x51.size a ≤ S2000x51.size a
  h_S2000x51 : 0 < S2000x51.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x51_S2000x51_1_0_0_1_n_n_wf : DotDims.WF S2000x256 S256x51 S2000x51 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x51.size a ≤ S256x51.size a
  hwx2_2 : ∀ i : grid2.Coords, EltTy.bits .f32 = 32 ∨ (Rect.block (s := S256x51) S256x51.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x51.size a ≤ S256x51.size a
  hwx2_3 : ∀ i : grid2.Coords, EltTy.bits .f32 = 32 ∨ (Rect.block (s := S256x51) S256x51.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S51.size a ≤ S51.size a
  hwx2_4 : ∀ i : grid2.Coords, EltTy.bits .f32 = 32 ∨ (Rect.block (s := S51) S51.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x51.size a ≤ S50000x51.size a
  hwx2_5 : ∀ i : grid2.Coords, EltTy.bits .f32 = 32 ∨ (Rect.block (s := S50000x51) S2000x51.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x51_S2000x51_1_0_0_1_n_n : DotDims S2000x256 S256x51 S2000x51 where
  lhsContracting := [1]
  rhsContracting := [0]
  lhsNonContracting := [0]
  rhsNonContracting := [1]
  lhsBatch := []
  rhsBatch := []
  wf := dot_S2000x256_S256x51_S2000x51_1_0_0_1_n_n_wf

abbrev win0_0 : Pipeline.Window sig grid0 :=
  Pipeline.Window.ofSpec (Memref.whole main_v16) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v30) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v17) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S256x51.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S256x51.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S51.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v34) S2000x51.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S512x51 : Shape := ⟨2, ![512, 51]⟩
abbrev S51 : Shape := ⟨1, ![51]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S50000x512 : Shape := ⟨2, ![50000, 512]⟩
abbrev S50000x51 : Shape := ⟨2, ![50000, 51]⟩
abbrev S1x51 : Shape := ⟨2, ![1, 51]⟩

abbrev nBuf : Space → Nat
  | .hbm => 74
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x256, .f32⟩
  | .hbm, ⟨4, _⟩ => ⟨S256, .f32⟩
  | .hbm, ⟨5, _⟩ => ⟨S128x256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S512x51, .f32⟩
  | .hbm, ⟨10, _⟩ => ⟨S51, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S800000x1, .f32⟩
  | .hbm, ⟨25, _⟩ => ⟨S800000x128, .f32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S50000x256, .f32⟩
  | .hbm, ⟨32, _⟩ => ⟨S1x256, .f32⟩
  | .hbm, ⟨33, _⟩ => ⟨S50000x256, .f32⟩
  | .hbm, ⟨34, _⟩ => ⟨S50000x256, .f32⟩
  | .hbm, ⟨35, _⟩ => ⟨S50000x256, .f32⟩
  | .hbm, ⟨36, _⟩ => ⟨S50000x256, .f32⟩
  | .hbm, ⟨37, _⟩ => ⟨S_, .f32⟩
  | .hbm, ⟨38, _⟩ => ⟨S50000x256, .f32⟩
  | .hbm, ⟨39, _⟩ => ⟨S50000x256, .f32⟩
  | .hbm, ⟨40, _⟩ => ⟨S1x800000, .i32⟩
  | .hbm, ⟨41, _⟩ => ⟨S800000, .i32⟩
  | .hbm, ⟨42, _⟩ => ⟨S1x800000, .i32⟩
  | .hbm, ⟨43, _⟩ => ⟨S800000, .i32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x256, .f32⟩
  | .hbm, ⟨53, _⟩ => ⟨S800000x1, .f32⟩
  | .hbm, ⟨54, _⟩ => ⟨S800000x256, .f32⟩
  | .hbm, ⟨55, _⟩ => ⟨S800000x256, .f32⟩
  | .hbm, ⟨56, _⟩ => ⟨S_, .f32⟩
  | .hbm, ⟨57, _⟩ => ⟨S50000x256, .f32⟩
  | .hbm, ⟨58, _⟩ => ⟨S800000x1, .i32⟩
  | .hbm, ⟨59, _⟩ => ⟨S50000x256, .f32⟩
  | .hbm, ⟨60, _⟩ => ⟨S50000x256, .f32⟩
  | .hbm, ⟨61, _⟩ => ⟨S1x256, .f32⟩
  | .hbm, ⟨62, _⟩ => ⟨S50000x256, .f32⟩
  | .hbm, ⟨63, _⟩ => ⟨S50000x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x512, .f32⟩
  | .hbm, ⟨70, _⟩ => ⟨S50000x51, .f32⟩
  | .hbm, ⟨71, _⟩ => ⟨S1x51, .f32⟩
  | .hbm, ⟨72, _⟩ => ⟨S50000x51, .f32⟩
  | .hbm, ⟨73, _⟩ => ⟨S50000x51, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_cst : Ref sig .tc := ⟨.hbm, 37, rfl⟩
abbrev main_call0_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_1 : Ref sig .tc := ⟨.hbm, 44, rfl⟩
abbrev main_v28 : Ref sig .tc := ⟨.hbm, 45, rfl⟩
abbrev main_v29 : Ref sig .tc := ⟨.hbm, 46, rfl⟩
abbrev main_c_2 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_3 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S800000x1_S800000x256_0_1 : S800000x1.BroadcastsInDim S800000x256 (![0, 1] : Fin 2 → Fin S800000x256.rank)
  concatenates_S50000x256_S50000x256_S50000x512_d1 : Shape.Concatenates [S50000x256, S50000x256] S50000x512 1
  bcast_S51_S1x51_1 : S51.BroadcastsInDim S1x51 (![1] : Fin 1 → Fin S1x51.rank)
  bcast_S1x51_S50000x51_0_1 : S1x51.BroadcastsInDim S50000x51 (![0, 1] : Fin 2 → Fin S50000x51.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x512_S512x51_S50000x51_1_0_0_1_n_n_wf : DotDims.WF S50000x512 S512x51 S50000x51 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x512_S512x51_S50000x51_1_0_0_1_n_n : DotDims S50000x512 S512x51 S50000x51 where
  lhsContracting := [1]
  rhsContracting := [0]
  lhsNonContracting := [0]
  rhsNonContracting := [1]
  lhsBatch := []
  rhsBatch := []
  wf := dot_S50000x512_S512x51_S50000x51_1_0_0_1_n_n_wf

class Facts : Prop extends Facts₀ where

variable [Facts]
-- ==== Proof.KernelRun.lean ====
/-
  The idealized kernel's run with its result named.

  The program is six segments: host operations, the first layer's dense kernel, host operations, the second
  layer's dense kernel, two slices, the head's kernel. Every weakly fair execution goes through them in order and
  ends with each unscoped buffer at the contents the last segment leaves (the fold `Gen.W6` of the segments from the
  launch memory). Read at the result buffer this gives the result; read at the argument buffers it gives the
  arguments unchanged.
-/
import proofs.«154335_j32238024524262_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last segment's
    contents and the arguments as launched. -/
theorem run_named : θ_run defs (onTc (τ := τ) (main (F := F))) ⟨m, fun _ => 0, ρ⟩ (fun r => ∀ c : Dev nD,
      r.2.mem ((c.tc : Thread nD τ).loc main_v34) = W6 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v34 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Run

end
-- ==== Proof.LibMatmulRead.lean ====
/-
  A matrix product read at an entry, for ANY contraction record of the "rows by columns" form.

  A record that contracts the left operand's second axis with the right operand's first and has no batch axis
  describes the textbook product of an `a × K` by a `K × b` array. At the ideal instance the product accumulated
  into an all-zero block has, at entry `(p, q)`, the value `Σ_k lhs[p, k] · rhs[k, q]` with `k` over `Fin K`:
  the accumulator's zero is the additive identity, and the record's contraction index set is `Fin K`.
  The record is a variable here, so one proof serves every product of this form in a program.
-/
import Idealize.ShloMosaic.Lib.ValueIdx
import Idealize.ShloMosaic.PureOps.Ideal.Laws

noncomputable section

namespace Idealize.ShloMosaic.MatmulRead

open Idealize.ShloMosaic Idealize.ShloMosaic.ValueIdx
open scoped BigOperators

variable {a K b : ℕ} (D : DotDims (⟨2, ![a, K]⟩ : Shape) (⟨2, ![K, b]⟩ : Shape) (⟨2, ![a, b]⟩ : Shape))

/-- "Rows by columns": the left operand's second axis is contracted with the right operand's first, each operand's
    other axis survives, and there is no batch axis. -/
structure RowsByCols : Prop where
  lc : D.lhsContracting = [1]
  rc : D.rhsContracting = [0]
  ln : D.lhsNonContracting = [0]
  rn : D.rhsNonContracting = [1]
  lb : D.lhsBatch = []
  rb : D.rhsBatch = []

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

variable {D}

/-- The left operand is read in the result's row. -/
theorem lhsIdx_row (h : RowsByCols D) (j : (⟨2, ![a, b]⟩ : Shape).Idx) (κ : D.contr.Idx) :
    (D.lhsIdx j κ 0).val = (j 0).val := by
  have hb : (0 : Fin (⟨2, ![a, K]⟩ : Shape).rank) ∉ D.lhsBatch := by rw [h.lb]; exact List.not_mem_nil
  have hn : (0 : Fin (⟨2, ![a, K]⟩ : Shape).rank) ∈ D.lhsNonContracting := by rw [h.ln]; exact List.mem_singleton.mpr rfl
  unfold DotDims.lhsIdx
  rw [dif_neg hb, dif_pos hn]
  simp only [Fin.val_cast]
  exact val_congr j _ _ _ _ (by simp [h.lb, h.ln])

/-- The right operand is read in the result's column. -/
theorem rhsIdx_col (h : RowsByCols D) (j : (⟨2, ![a, b]⟩ : Shape).Idx) (κ : D.contr.Idx) :
    (D.rhsIdx j κ 1).val = (j 1).val := by
  have hb : (1 : Fin (⟨2, ![K, b]⟩ : Shape).rank) ∉ D.rhsBatch := by rw [h.rb]; exact List.not_mem_nil
  have hn : (1 : Fin (⟨2, ![K, b]⟩ : Shape).rank) ∈ D.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

/-- Into a zero accumulator, entry `(p, q)` of the product is `Σ_k lhs[p, k] · rhs[k, q]`. -/
theorem matmul_zero_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    FloatOps.matmul D prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact lhsIdx_row h _ _
    | ⟨1, _⟩ => exact (D.lhsIdx_val_of_single h.lc _ _).trans hk)
  have er : D.rhsIdx (ix2 p q) ((contrEquiv1 D K hr hs).symm k) = ix2 k q := funext fun ax => Fin.ext (by
    match ax with
    | ⟨0, _⟩ => exact (D.rhsIdx_val_of_single h.rc _ _).trans hk
    | ⟨1, _⟩ => exact rhsIdx_col h _ _)
  rw [el, er]

end Idealize.ShloMosaic.MatmulRead
-- ==== Proof.LibBiasRow.lean ====
/-
  A bias vector spread over the rows of a matrix, read at an entry.

  A linear layer adds a bias of H entries to every row of an n × H matrix. A kernel body writes this as a cast of the
  [H] vector to the one-row matrix [1, H] followed by a broadcast to [n, H]; the host writes it as two
  broadcasts-in-dimension, [H] → [1, H] along axis 1 and [1, H] → [n, H]. Either way entry (p, q) is the bias at q.
  Also here: the host's all-zero array (a zero constant broadcast from rank 0) reads zero at every index.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibBiasRow

open Idealize.ShloMosaic Idealize.ShloMosaic.ValueIdx

variable {α : Type}

/-- Kernel form: a `[H]` vector cast to the row `[1, H]` and broadcast to `[n, H]` reads, at `(p, q)`, the vector at `q`. -/
theorem cast_broadcast_apply {n H : ℕ} (b : (⟨1, ![H]⟩ : Shape).Idx → α) (h1 : (⟨1, ![H]⟩ : Shape).ShapeCasts ⟨2, ![1, H]⟩)
    (h2 : (⟨2, ![1, H]⟩ : Shape).Broadcasts ⟨2, ![n, H]⟩) (p : Fin n) (q : Fin H) :
    broadcastTo ⟨2, ![n, H]⟩ (shapeCast ⟨2, ![1, H]⟩ b h1) h2 (ix2 p q) = b (ix1 q) := by
  rw [broadcastTo_apply _ h2 (ix2 p q) (ix2 (0 : Fin 1) q) (fun a => by
    match a with
    | ⟨0, _⟩ => rfl
    | ⟨1, _⟩ =>
      show q.val = if H = 1 then 0 else q.val
      split_ifs with hH
      · have := q.isLt; omega
      · rfl)]
  refine shapeCast_apply b h1 _ _ ?_
  rw [Shape.rowMajor_val_two, Shape.rowMajor_val_one]
  show q.val = 0 * H + q.val
  rw [Nat.zero_mul, Nat.zero_add]

/-- Host form: a `[H]` vector broadcast in dimension to `[1, H]` (along axis 1) and then to `[n, H]` reads, at
    `(p, q)`, the vector at `q`. -/
theorem bcast_bcast_apply {n H : ℕ} (b : (⟨1, ![H]⟩ : Shape).Idx → α)
    (h1 : (⟨1, ![H]⟩ : Shape).BroadcastsInDim ⟨2, ![1, H]⟩ ![1])
    (h2 : (⟨2, ![1, H]⟩ : Shape).BroadcastsInDim ⟨2, ![n, H]⟩ ![0, 1]) (p : Fin n) (q : Fin H) :
    broadcastInDim ⟨2, ![n, H]⟩ ![0, 1] h2 (broadcastInDim ⟨2, ![1, H]⟩ ![1] h1 b) (ix2 p q) = b (ix1 q) := by
  have hq : q.val = if H = 1 then 0 else q.val := by
    split_ifs with hH
    · have := q.isLt; omega
    · rfl
  rw [broadcastInDim_apply _ h2 _ (ix2 p q) (ix2 (0 : Fin 1) q) (fun a => by
    match a with
    | ⟨0, _⟩ => rfl
    | ⟨1, _⟩ => exact hq)]
  exact broadcastInDim_apply _ h1 b _ (ix1 q) (fun a => by
    match a with
    | ⟨0, _⟩ => exact hq)

/-- The zero constant of rank 0 broadcast to any shape reads zero at every index, on the extended reals. -/
theorem zeros_apply {s : Shape} (h : (⟨0, ![]⟩ : Shape).BroadcastsInDim s ![]) (j : s.Idx) :
    broadcastInDim s ![] h (constant (F := Ideal) ⟨0, ![]⟩ .f32 0x00000000#32) j = 0 := by
  rw [broadcastInDim_apply _ h _ j ix0 (fun a => a.elim0)]
  exact Ideal.ofBits_zero_f32

end Cert.LibBiasRow

end
-- ==== Proof.Spec.lean ====
/-
  The network that both programs compute, written once, entry by entry, on the extended reals.

  A graph-convolution layer maps node features x (one row per node) to
      relu( A(x) · W_rel + x · W_root + b ),
  where A(x) is the edge-weighted sum of the neighbours' rows (a gather, a scaling and a scatter-add; here
  A is a parameter, since both programs compute it by the same host operations). Two such layers are followed
  by a linear head on the two hidden layers side by side:
      out = [h1 | h2] · W + b,   W of 512 rows: rows 0..255 meet h1, rows 256..511 meet h2.
  The sums are over the contracted axis, as finite sums in the extended reals; only commutativity and
  associativity of + are needed to compare the two programs, so no finiteness assumption enters.
-/
import Idealize.ShloMosaic.Lib.ValueIdx
import Idealize.ShloMosaic.PureOps.Ideal

noncomputable section

namespace Cert.GraphNet

open Idealize.ShloMosaic Idealize.ShloMosaic.ValueIdx
open scoped BigOperators

/-- Entry (p, q) of one layer's dense half: row p of the aggregated messages against column q of the relation
    weights, plus row p of the features against column q of the root weights, plus the bias, clipped at zero. -/
def convAt {n K H : ℕ} (agg x : (⟨2, ![n, K]⟩ : Shape).Idx → EReal) (wrel wroot : (⟨2, ![K, H]⟩ : Shape).Idx → EReal)
    (b : (⟨1, ![H]⟩ : Shape).Idx → EReal) (p : Fin n) (q : Fin H) : EReal :=
  max ((∑ k : Fin K, agg (ix2 p k) * wrel (ix2 k q)) + (∑ k : Fin K, x (ix2 p k) * wroot (ix2 k q)) + b (ix1 q)) 0

/-- The layer's dense half as an array. -/
def conv {n K H : ℕ} (agg x : (⟨2, ![n, K]⟩ : Shape).Idx → EReal) (wrel wroot : (⟨2, ![K, H]⟩ : Shape).Idx → EReal)
    (b : (⟨1, ![H]⟩ : Shape).Idx → EReal) : (⟨2, ![n, H]⟩ : Shape).Idx → EReal :=
  fun j => convAt agg x wrel wroot b (j 0) (j 1)

theorem conv_ix2 {n K H : ℕ} (agg x : (⟨2, ![n, K]⟩ : Shape).Idx → EReal) (wrel wroot : (⟨2, ![K, H]⟩ : Shape).Idx → EReal)
    (b : (⟨1, ![H]⟩ : Shape).Idx → EReal) (p : Fin n) (q : Fin H) :
    conv agg x wrel wroot b (ix2 p q) = convAt agg x wrel wroot b p q := rfl

/-- Row k of the upper half of the head's weights, as a row of the whole matrix. -/
abbrev lo (k : Fin 256) : Fin 512 := ⟨k.val, by omega⟩
/-- Row k of the lower half of the head's weights, as a row of the whole matrix. -/
abbrev hi (k : Fin 256) : Fin 512 := ⟨256 + k.val, by omega⟩

/-- Entry (p, q) of the head: row p of the first hidden layer against the upper half of column q, row p of the
    second hidden layer against the lower half, plus the bias. -/
def headAt {n C : ℕ} (h1 h2 : (⟨2, ![n, 256]⟩ : Shape).Idx → EReal) (w : (⟨2, ![512, C]⟩ : Shape).Idx → EReal)
    (b : (⟨1, ![C]⟩ : Shape).Idx → EReal) (p : Fin n) (q : Fin C) : EReal :=
  (∑ k : Fin 256, h1 (ix2 p k) * w (ix2 (lo k) q)) + (∑ k : Fin 256, h2 (ix2 p k) * w (ix2 (hi k) q)) + b (ix1 q)

/-- The head as an array. -/
def head {n C : ℕ} (h1 h2 : (⟨2, ![n, 256]⟩ : Shape).Idx → EReal) (w : (⟨2, ![512, C]⟩ : Shape).Idx → EReal)
    (b : (⟨1, ![C]⟩ : Shape).Idx → EReal) : (⟨2, ![n, C]⟩ : Shape).Idx → EReal :=
  fun j => headAt h1 h2 w b (j 0) (j 1)

theorem head_ix2 {n C : ℕ} (h1 h2 : (⟨2, ![n, 256]⟩ : Shape).Idx → EReal) (w : (⟨2, ![512, C]⟩ : Shape).Idx → EReal)
    (b : (⟨1, ![C]⟩ : Shape).Idx → EReal) (p : Fin n) (q : Fin C) :
    head h1 h2 w b (ix2 p q) = headAt h1 h2 w b p q := rfl

/-- Entry (p, q) of the head with the weight matrix already cut in its two halves. -/
def head2At {n C : ℕ} (h1 h2 : (⟨2, ![n, 256]⟩ : Shape).Idx → EReal) (wa wb : (⟨2, ![256, C]⟩ : Shape).Idx → EReal)
    (b : (⟨1, ![C]⟩ : Shape).Idx → EReal) (p : Fin n) (q : Fin C) : EReal :=
  (∑ k : Fin 256, h1 (ix2 p k) * wa (ix2 k q)) + (∑ k : Fin 256, h2 (ix2 p k) * wb (ix2 k q)) + b (ix1 q)

/-- The head over the two halves of the weight matrix, as an array. -/
def head2 {n C : ℕ} (h1 h2 : (⟨2, ![n, 256]⟩ : Shape).Idx → EReal) (wa wb : (⟨2, ![256, C]⟩ : Shape).Idx → EReal)
    (b : (⟨1, ![C]⟩ : Shape).Idx → EReal) : (⟨2, ![n, C]⟩ : Shape).Idx → EReal :=
  fun j => head2At h1 h2 wa wb b (j 0) (j 1)

theorem head2_ix2 {n C : ℕ} (h1 h2 : (⟨2, ![n, 256]⟩ : Shape).Idx → EReal) (wa wb : (⟨2, ![256, C]⟩ : Shape).Idx → EReal)
    (b : (⟨1, ![C]⟩ : Shape).Idx → EReal) (p : Fin n) (q : Fin C) :
    head2 h1 h2 wa wb b (ix2 p q) = head2At h1 h2 wa wb b p q := rfl

/-- With the two halves read out of the whole matrix, the cut head is the head. -/
theorem head2_eq_head {n C : ℕ} (h1 h2 : (⟨2, ![n, 256]⟩ : Shape).Idx → EReal) (w : (⟨2, ![512, C]⟩ : Shape).Idx → EReal)
    (wa wb : (⟨2, ![256, C]⟩ : Shape).Idx → EReal) (b : (⟨1, ![C]⟩ : Shape).Idx → EReal)
    (ha : ∀ (k : Fin 256) (q : Fin C), wa (ix2 k q) = w (ix2 (lo k) q))
    (hb : ∀ (k : Fin 256) (q : Fin C), wb (ix2 k q) = w (ix2 (hi k) q)) :
    head2 h1 h2 wa wb b = head h1 h2 w b := by
  funext j
  obtain ⟨p, q, rfl⟩ : ∃ (p : Fin n) (q : Fin C), j = ix2 p q := ⟨j 0, j 1, eq_ix2 j⟩
  show head2At h1 h2 wa wb b p q = headAt h1 h2 w b p q
  unfold head2At headAt
  simp only [ha, hb]

/-- A sum over the 512 rows is the sum over the upper 256 plus the sum over the lower 256. -/
theorem sum_halves {M : Type*} [AddCommMonoid M] (f : Fin 512 → M) :
    ∑ k : Fin 512, f k = (∑ k : Fin 256, f (lo k)) + ∑ k : Fin 256, f (hi k) := by
  have h := Fin.sum_univ_add (a := 256) (b := 256) (f : Fin (256 + 256) → M)
  refine h.trans ?_
  congr 1

/-- The whole network, given the two aggregation maps: two layers, then the head. -/
def net {n : ℕ}
    (A1 : ((⟨2, ![n, 128]⟩ : Shape).Idx → EReal) → (⟨2, ![n, 128]⟩ : Shape).Idx → EReal)
    (A2 : ((⟨2, ![n, 256]⟩ : Shape).Idx → EReal) → (⟨2, ![n, 256]⟩ : Shape).Idx → EReal)
    (x0 : (⟨2, ![n, 128]⟩ : Shape).Idx → EReal)
    (w1rel : (⟨2, ![128, 256]⟩ : Shape).Idx → EReal) (b1 : (⟨1, ![256]⟩ : Shape).Idx → EReal)
    (w1root : (⟨2, ![128, 256]⟩ : Shape).Idx → EReal)
    (w2rel : (⟨2, ![256, 256]⟩ : Shape).Idx → EReal) (b2 : (⟨1, ![256]⟩ : Shape).Idx → EReal)
    (w2root : (⟨2, ![256, 256]⟩ : Shape).Idx → EReal)
    (lw : (⟨2, ![512, 51]⟩ : Shape).Idx → EReal) (lb : (⟨1, ![51]⟩ : Shape).Idx → EReal) :
    (⟨2, ![n, 51]⟩ : Shape).Idx → EReal :=
  head (conv (A1 x0) x0 w1rel w1root b1)
    (conv (A2 (conv (A1 x0) x0 w1rel w1root b1)) (conv (A1 x0) x0 w1rel w1root b1) w2rel w2root b2) lw lb

end Cert.GraphNet

end
-- ==== Proof.KernelBody.lean ====
/-
  What each kernel body stores, read at one entry, on the extended reals.

  Each of the three bodies loads two row blocks (2000 rows), two weight matrices and a bias row, multiplies each row
  block by its weight matrix into a zero accumulator, adds the two products and then the bias row spread over the
  rows; the two layer bodies then clip at zero. A change of float format is the identity on the extended reals, and
  a product into a zero accumulator is the plain sum over the contracted axis, so entry (p, q) of the stored block is
  the layer formula (or the head formula) of the loaded blocks at (p, q).
-/
import proofs.«154335_j32238024524262_1_alg».proof.Proof.Gen.KernelIdeal.Skeleton
import proofs.«154335_j32238024524262_1_alg».proof.Proof.LibMatmulRead
import proofs.«154335_j32238024524262_1_alg».proof.Proof.LibBiasRow
import proofs.«154335_j32238024524262_1_alg».proof.Proof.Spec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Idealize.ShloMosaic.MatmulRead
open scoped BigOperators

/-- The three contraction records of the bodies are of the rows-by-columns form. -/
theorem rbc0 : RowsByCols dot_S2000x128_S128x256_S2000x256_1_0_0_1_n_n := ⟨rfl, rfl, rfl, rfl, rfl, rfl⟩
theorem rbc1 : RowsByCols dot_S2000x256_S256x256_S2000x256_1_0_0_1_n_n := ⟨rfl, rfl, rfl, rfl, rfl, rfl⟩
theorem rbc2 : RowsByCols dot_S2000x256_S256x51_S2000x51_1_0_0_1_n_n := ⟨rfl, rfl, rfl, rfl, rfl, rfl⟩

/-- The first layer's body stores, at (p, q), the layer formula of its loaded blocks. -/
theorem pay0_ix2 (v0 v3 : Vec Ideal S2000x128 .f32) (v5 v7 : Vec Ideal S128x256 .f32) (v12 : Vec Ideal S256 .f32)
    (p : Fin 2000) (q : Fin 256) :
    k0_pay1 (F := Ideal) v0 v3 v5 v7 v12 (ix2 p q) = GraphNet.convAt v0 v3 v5 v7 v12 p q := by
  unfold k0_pay1 GraphNet.convAt
  simp only [maximumf_apply, addf_apply, broadcast_apply, matmul]
  rw [matmul_zero_ix2 rbc0 rfl rfl, matmul_zero_ix2 rbc0 rfl rfl, Cert.LibBiasRow.cast_broadcast_apply]
  simp only [truncf_apply, shapeCast_self]
  exact congrArg (max _) Ideal.ofBits_zero_f32

/-- The second layer's body stores, at (p, q), the layer formula of its loaded blocks. -/
theorem pay1_ix2 (v0 v3 : Vec Ideal S2000x256 .f32) (v6 v8 : Vec Ideal S256x256 .f32) (v13 : Vec Ideal S256 .f32)
    (p : Fin 2000) (q : Fin 256) :
    k1_pay1 (F := Ideal) v0 v3 v6 v8 v13 (ix2 p q) = GraphNet.convAt v0 v3 v6 v8 v13 p q := by
  unfold k1_pay1 GraphNet.convAt
  simp only [maximumf_apply, addf_apply, broadcast_apply, matmul]
  rw [matmul_zero_ix2 rbc1 rfl rfl, matmul_zero_ix2 rbc1 rfl rfl, Cert.LibBiasRow.cast_broadcast_apply]
  simp only [truncf_apply, shapeCast_self]
  exact congrArg (max _) Ideal.ofBits_zero_f32

/-- The head's body stores, at (p, q), the two products and the bias added. -/
theorem pay2_ix2 (v0 v3 : Vec Ideal S2000x256 .f32) (v6 v9 : Vec Ideal S256x51 .f32) (v15 : Vec Ideal S51 .f32)
    (p : Fin 2000) (q : Fin 51) :
    k2_pay1 (F := Ideal) v0 v3 v6 v9 v15 (ix2 p q) = GraphNet.head2At v0 v3 v6 v9 v15 p q := by
  unfold k2_pay1 GraphNet.head2At
  simp only [addf_apply, matmul]
  rw [matmul_zero_ix2 rbc2 rfl rfl, matmul_zero_ix2 rbc2 rfl rfl, Cert.LibBiasRow.cast_broadcast_apply]
  simp only [truncf_apply, shapeCast_self]

end Cert.KernelIdeal.Body

end
-- ==== Proof.KernelRegion0.lean ====
/-
  Region 0: the array the first layer's dense kernel leaves behind, as one function of the arrays it finds.

  The grid has 25 points; point t stages rows 2000·t … 2000·t + 1999 of the two row-block operands and of the
  result, and the whole of the two weight matrices and of the bias. So what point t writes back is rows
  2000·t … of the layer formula of the whole arrays, and the 25 row blocks cover the result array.
-/
import proofs.«154335_j32238024524262_1_alg».proof.Proof.Gen.KernelIdeal.Frame
import proofs.«154335_j32238024524262_1_alg».proof.Proof.KernelBody
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row-block windows move with the point, the others stay put. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

theorem lt25 (t : Fin cfg0.N) : t.val < 25 := by
  have hN : grid0.N = 25 := N_0
  have : t.val < grid0.N := t.isLt
  omega

/-- Row p of point t's block is row 2000·t + p of the array. -/
abbrev row (t : Fin cfg0.N) (p : Fin 2000) : Fin 50000 := ⟨t.val * 2000 + p.val, by have := lt25 t; have := p.isLt; omega⟩

/-- The first row-block operand's block at point t, read at (p, k). -/
theorem blk0_apply (c : Dev nD) (t : Fin cfg0.N) (p : Fin 2000) (k : Fin 128) :
    (iblk0 V c 0 t : S2000x128.Idx → EReal) (ix2 p k) = (V c main_v16 : S50000x128.Idx → EReal) (ix2 (row t p) k) := by
  obtain ⟨e0, e1, -⟩ := idx_facts t
  unfold iblk0
  rw [View.read_apply]
  show V c main_v16 _ = V c main_v16 _
  congr 1
  funext a
  apply Fin.ext
  match a with
  | ⟨0, _⟩ => show win0_0.index t 0 * 2000 + 1 * p.val = t.val * 2000 + p.val; rw [e0]; omega
  | ⟨1, _⟩ => show win0_0.index t 1 * 128 + 1 * k.val = k.val; rw [e1]; omega

/-- The second row-block operand's block at point t, read at (p, k). -/
theorem blk1_apply (c : Dev nD) (t : Fin cfg0.N) (p : Fin 2000) (k : Fin 128) :
    (iblk0 V c 1 t : S2000x128.Idx → EReal) (ix2 p k) = (V c main_arg0 : S50000x128.Idx → EReal) (ix2 (row t p) k) := by
  obtain ⟨-, -, e0, e1, -⟩ := idx_facts t
  unfold iblk0
  rw [View.read_apply]
  show V c main_arg0 _ = V c main_arg0 _
  congr 1
  funext a
  apply Fin.ext
  match a with
  | ⟨0, _⟩ => show win0_1.index t 0 * 2000 + 1 * p.val = t.val * 2000 + p.val; rw [e0]; omega
  | ⟨1, _⟩ => show win0_1.index t 1 * 128 + 1 * k.val = k.val; rw [e1]; omega

/-- The first weight matrix is staged whole. -/
theorem blk2_apply (c : Dev nD) (t : Fin cfg0.N) (k : Fin 128) (q : Fin 256) :
    (iblk0 V c 2 t : S128x256.Idx → EReal) (ix2 k q) = (V c main_arg3 : S128x256.Idx → EReal) (ix2 k q) := by
  obtain ⟨-, -, -, -, e0, e1, -⟩ := idx_facts t
  unfold iblk0
  rw [View.read_apply]
  show V c main_arg3 _ = V c main_arg3 _
  congr 1
  funext a
  apply Fin.ext
  match a with
  | ⟨0, _⟩ => show win0_2.index t 0 * 128 + 1 * k.val = k.val; rw [e0]; omega
  | ⟨1, _⟩ => show win0_2.index t 1 * 256 + 1 * q.val = q.val; rw [e1]; omega

/-- The second weight matrix is staged whole. -/
theorem blk3_apply (c : Dev nD) (t : Fin cfg0.N) (k : Fin 128) (q : Fin 256) :
    (iblk0 V c 3 t : S128x256.Idx → EReal) (ix2 k q) = (V c main_arg5 : S128x256.Idx → EReal) (ix2 k q) := by
  obtain ⟨-, -, -, -, -, -, e0, e1, -⟩ := idx_facts t
  unfold iblk0
  rw [View.read_apply]
  show V c main_arg5 _ = V c main_arg5 _
  congr 1
  funext a
  apply Fin.ext
  match a with
  | ⟨0, _⟩ => show win0_3.index t 0 * 128 + 1 * k.val = k.val; rw [e0]; omega
  | ⟨1, _⟩ => show win0_3.index t 1 * 256 + 1 * q.val = q.val; rw [e1]; omega

/-- The bias is staged whole. -/
theorem blk4_apply (c : Dev nD) (t : Fin cfg0.N) (q : Fin 256) :
    (iblk0 V c 4 t : S256.Idx → EReal) (ix1 q) = (V c main_arg4 : S256.Idx → EReal) (ix1 q) := by
  obtain ⟨-, -, -, -, -, -, -, -, e0, -⟩ := idx_facts t
  unfold iblk0
  rw [View.read_apply]
  show V c main_arg4 _ = V c main_arg4 _
  congr 1
  funext a
  apply Fin.ext
  match a with
  | ⟨0, _⟩ => show win0_4.index t 0 * 256 + 1 * q.val = q.val; rw [e0]; omega

/-- The result array as one function of the arrays the region finds. -/
def G (c : Dev nD) : S50000x256.Idx → EReal :=
  GraphNet.conv (V c main_v16) (V c main_arg0) (V c main_arg3) (V c main_arg5) (V c main_arg4)

/-- What point t writes back is block t of `G`. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz2]
  simp only [View.ld_unit_zero (S := S2000x128) hz2, View.ld_unit_zero (S := S128x256) hz2, View.ld_unit_zero (S := S256) hz1]
  funext j
  obtain ⟨p, q, rfl⟩ : ∃ (p : Fin 2000) (q : Fin 256), j = ix2 p q := ⟨j 0, j 1, eq_ix2 j⟩
  refine (Body.pay0_ix2 _ _ _ _ _ p q).trans ?_
  obtain ⟨-, -, -, -, -, -, -, -, -, e0, e1⟩ := idx_facts t
  have hemb : ((cfg0.win 5).blk t).view.emb (ix2 p q) = (ix2 (row t p) q : S50000x256.Idx) := by
    funext a
    apply Fin.ext
    match a with
    | ⟨0, _⟩ => show win0_5.index t 0 * 2000 + 1 * p.val = t.val * 2000 + p.val; rw [e0]; omega
    | ⟨1, _⟩ => show win0_5.index t 1 * 256 + 1 * q.val = q.val; rw [e1]; omega
  show _ = G V c (((cfg0.win 5).blk t).view.emb (ix2 p q))
  rw [hemb]
  unfold G
  rw [GraphNet.conv_ix2]
  unfold GraphNet.convAt
  simp only [blk0_apply V c t p, blk1_apply V c t p, blk2_apply V c t, blk3_apply V c t, blk4_apply V c t]

/-- Every index of the result array lies in some point's block: row r in the block of point r / 2000. -/
theorem cover (i : S50000x256.Idx) :
    ∃ t : Fin cfg0.N, (cfg0.win 5).flush t = true ∧ i ∈ ((cfg0.win 5).blk t).view.set := by
  have hN : grid0.N = 25 := N_0
  have hi0 : (i 0).val < 50000 := (i 0).isLt
  have hi1 : (i 1).val < 256 := (i 1).isLt
  let t : Fin cfg0.N := ⟨(i 0).val / 2000, by show (i 0).val / 2000 < grid0.N; omega⟩
  obtain ⟨-, -, -, -, -, -, -, -, -, e0, e1⟩ := idx_facts t
  refine ⟨t, flush0_5 t, ?_⟩
  show i ∈ ((View.whole main_v17).slice (win0_5.rect t)).set
  rw [View.set_slice_whole, Rect.mem_set_unit]
  intro a
  match a with
  | ⟨0, _⟩ =>
    show win0_5.index t 0 * 2000 ≤ (i 0).val ∧ (i 0).val < win0_5.index t 0 * 2000 + 2000
    rw [e0]; show (i 0).val / 2000 * 2000 ≤ (i 0).val ∧ (i 0).val < (i 0).val / 2000 * 2000 + 2000; omega
  | ⟨1, _⟩ =>
    show win0_5.index t 1 * 256 ≤ (i 1).val ∧ (i 1).val < win0_5.index t 1 * 256 + 256
    rw [e1]; omega

/-- The result array after the region is `G` of the arrays the region finds. -/
theorem final (c : Dev nD) : (dat0 V c).arrAt 5 cfg0.N = G V c :=
  (dat0 V c).arrAt_eq_of_cover 5 (G V c) (fun t _ => flushed_eq V c t) (cover)

end Cert.KernelIdeal.Region0

end
-- ==== Proof.KernelRegion1.lean ====
/-
  Region 1: the array the second layer's dense kernel leaves behind, as one function of the arrays it finds.

  The grid has 25 points; point t stages rows 2000·t … 2000·t + 1999 of the two row-block operands and of the
  result, and the whole of the two weight matrices and of the bias. So what point t writes back is rows
  2000·t … of the layer formula of the whole arrays, and the 25 row blocks cover the result array.
-/
import proofs.«154335_j32238024524262_1_alg».proof.Proof.Gen.KernelIdeal.Frame
import proofs.«154335_j32238024524262_1_alg».proof.Proof.KernelBody
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row-block windows move with the point, the others stay put. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

theorem lt25 (t : Fin cfg1.N) : t.val < 25 := by
  have hN : grid1.N = 25 := N_1
  have : t.val < grid1.N := t.isLt
  omega

/-- Row p of point t's block is row 2000·t + p of the array. -/
abbrev row (t : Fin cfg1.N) (p : Fin 2000) : Fin 50000 := ⟨t.val * 2000 + p.val, by have := lt25 t; have := p.isLt; omega⟩

/-- The first row-block operand's block at point t, read at (p, k). -/
theorem blk0_apply (c : Dev nD) (t : Fin cfg1.N) (p : Fin 2000) (k : Fin 256) :
    (iblk1 V c 0 t : S2000x256.Idx → EReal) (ix2 p k) = (V c main_v30 : S50000x256.Idx → EReal) (ix2 (row t p) k) := by
  obtain ⟨e0, e1, -⟩ := idx_facts t
  unfold iblk1
  rw [View.read_apply]
  show V c main_v30 _ = V c main_v30 _
  congr 1
  funext a
  apply Fin.ext
  match a with
  | ⟨0, _⟩ => show win1_0.index t 0 * 2000 + 1 * p.val = t.val * 2000 + p.val; rw [e0]; omega
  | ⟨1, _⟩ => show win1_0.index t 1 * 256 + 1 * k.val = k.val; rw [e1]; omega

/-- The second row-block operand's block at point t, read at (p, k). -/
theorem blk1_apply (c : Dev nD) (t : Fin cfg1.N) (p : Fin 2000) (k : Fin 256) :
    (iblk1 V c 1 t : S2000x256.Idx → EReal) (ix2 p k) = (V c main_v17 : S50000x256.Idx → EReal) (ix2 (row t p) k) := by
  obtain ⟨-, -, e0, e1, -⟩ := idx_facts t
  unfold iblk1
  rw [View.read_apply]
  show V c main_v17 _ = V c main_v17 _
  congr 1
  funext a
  apply Fin.ext
  match a with
  | ⟨0, _⟩ => show win1_1.index t 0 * 2000 + 1 * p.val = t.val * 2000 + p.val; rw [e0]; omega
  | ⟨1, _⟩ => show win1_1.index t 1 * 256 + 1 * k.val = k.val; rw [e1]; omega

/-- The first weight matrix is staged whole. -/
theorem blk2_apply (c : Dev nD) (t : Fin cfg1.N) (k : Fin 256) (q : Fin 256) :
    (iblk1 V c 2 t : S256x256.Idx → EReal) (ix2 k q) = (V c main_arg6 : S256x256.Idx → EReal) (ix2 k q) := by
  obtain ⟨-, -, -, -, e0, e1, -⟩ := idx_facts t
  unfold iblk1
  rw [View.read_apply]
  show V c main_arg6 _ = V c main_arg6 _
  congr 1
  funext a
  apply Fin.ext
  match a with
  | ⟨0, _⟩ => show win1_2.index t 0 * 256 + 1 * k.val = k.val; rw [e0]; omega
  | ⟨1, _⟩ => show win1_2.index t 1 * 256 + 1 * q.val = q.val; rw [e1]; omega

/-- The second weight matrix is staged whole. -/
theorem blk3_apply (c : Dev nD) (t : Fin cfg1.N) (k : Fin 256) (q : Fin 256) :
    (iblk1 V c 3 t : S256x256.Idx → EReal) (ix2 k q) = (V c main_arg8 : S256x256.Idx → EReal) (ix2 k q) := by
  obtain ⟨-, -, -, -, -, -, e0, e1, -⟩ := idx_facts t
  unfold iblk1
  rw [View.read_apply]
  show V c main_arg8 _ = V c main_arg8 _
  congr 1
  funext a
  apply Fin.ext
  match a with
  | ⟨0, _⟩ => show win1_3.index t 0 * 256 + 1 * k.val = k.val; rw [e0]; omega
  | ⟨1, _⟩ => show win1_3.index t 1 * 256 + 1 * q.val = q.val; rw [e1]; omega

/-- The bias is staged whole. -/
theorem blk4_apply (c : Dev nD) (t : Fin cfg1.N) (q : Fin 256) :
    (iblk1 V c 4 t : S256.Idx → EReal) (ix1 q) = (V c main_arg7 : S256.Idx → EReal) (ix1 q) := by
  obtain ⟨-, -, -, -, -, -, -, -, e0, -⟩ := idx_facts t
  unfold iblk1
  rw [View.read_apply]
  show V c main_arg7 _ = V c main_arg7 _
  congr 1
  funext a
  apply Fin.ext
  match a with
  | ⟨0, _⟩ => show win1_4.index t 0 * 256 + 1 * q.val = q.val; rw [e0]; omega

/-- The result array as one function of the arrays the region finds. -/
def G (c : Dev nD) : S50000x256.Idx → EReal :=
  GraphNet.conv (V c main_v30) (V c main_v17) (V c main_arg6) (V c main_arg8) (V c main_arg7)

/-- What point t writes back is block t of `G`. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz2]
  simp only [View.ld_unit_zero (S := S2000x256) hz2, View.ld_unit_zero (S := S256x256) hz2, View.ld_unit_zero (S := S256) hz1]
  funext j
  obtain ⟨p, q, rfl⟩ : ∃ (p : Fin 2000) (q : Fin 256), j = ix2 p q := ⟨j 0, j 1, eq_ix2 j⟩
  refine (Body.pay1_ix2 _ _ _ _ _ p q).trans ?_
  obtain ⟨-, -, -, -, -, -, -, -, -, e0, e1⟩ := idx_facts t
  have hemb : ((cfg1.win 5).blk t).view.emb (ix2 p q) = (ix2 (row t p) q : S50000x256.Idx) := by
    funext a
    apply Fin.ext
    match a with
    | ⟨0, _⟩ => show win1_5.index t 0 * 2000 + 1 * p.val = t.val * 2000 + p.val; rw [e0]; omega
    | ⟨1, _⟩ => show win1_5.index t 1 * 256 + 1 * q.val = q.val; rw [e1]; omega
  show _ = G V c (((cfg1.win 5).blk t).view.emb (ix2 p q))
  rw [hemb]
  unfold G
  rw [GraphNet.conv_ix2]
  unfold GraphNet.convAt
  simp only [blk0_apply V c t p, blk1_apply V c t p, blk2_apply V c t, blk3_apply V c t, blk4_apply V c t]

/-- Every index of the result array lies in some point's block: row r in the block of point r / 2000. -/
theorem cover (i : S50000x256.Idx) :
    ∃ t : Fin cfg1.N, (cfg1.win 5).flush t = true ∧ i ∈ ((cfg1.win 5).blk t).view.set := by
  have hN : grid1.N = 25 := N_1
  have hi0 : (i 0).val < 50000 := (i 0).isLt
  have hi1 : (i 1).val < 256 := (i 1).isLt
  let t : Fin cfg1.N := ⟨(i 0).val / 2000, by show (i 0).val / 2000 < grid1.N; omega⟩
  obtain ⟨-, -, -, -, -, -, -, -, -, e0, e1⟩ := idx_facts t
  refine ⟨t, flush1_5 t, ?_⟩
  show i ∈ ((View.whole main_v31).slice (win1_5.rect t)).set
  rw [View.set_slice_whole, Rect.mem_set_unit]
  intro a
  match a with
  | ⟨0, _⟩ =>
    show win1_5.index t 0 * 2000 ≤ (i 0).val ∧ (i 0).val < win1_5.index t 0 * 2000 + 2000
    rw [e0]; show (i 0).val / 2000 * 2000 ≤ (i 0).val ∧ (i 0).val < (i 0).val / 2000 * 2000 + 2000; omega
  | ⟨1, _⟩ =>
    show win1_5.index t 1 * 256 ≤ (i 1).val ∧ (i 1).val < win1_5.index t 1 * 256 + 256
    rw [e1]; omega

/-- The result array after the region is `G` of the arrays the region finds. -/
theorem final (c : Dev nD) : (dat1 V c).arrAt 5 cfg1.N = G V c :=
  (dat1 V c).arrAt_eq_of_cover 5 (G V c) (fun t _ => flushed_eq V c t) (cover)

end Cert.KernelIdeal.Region1

end
-- ==== Proof.KernelRegion2.lean ====
/-
  Region 2: the array the head's kernel leaves behind, as one function of the arrays it finds.

  The grid has 25 points; point t stages rows 2000·t … 2000·t + 1999 of the two row-block operands and of the
  result, and the whole of the two weight matrices and of the bias. So what point t writes back is rows
  2000·t … of the head formula of the whole arrays, and the 25 row blocks cover the result array.
-/
import proofs.«154335_j32238024524262_1_alg».proof.Proof.Gen.KernelIdeal.Frame
import proofs.«154335_j32238024524262_1_alg».proof.Proof.KernelBody
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row-block windows move with the point, the others stay put. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

theorem lt25 (t : Fin cfg2.N) : t.val < 25 := by
  have hN : grid2.N = 25 := N_2
  have : t.val < grid2.N := t.isLt
  omega

/-- Row p of point t's block is row 2000·t + p of the array. -/
abbrev row (t : Fin cfg2.N) (p : Fin 2000) : Fin 50000 := ⟨t.val * 2000 + p.val, by have := lt25 t; have := p.isLt; omega⟩

/-- The first row-block operand's block at point t, read at (p, k). -/
theorem blk0_apply (c : Dev nD) (t : Fin cfg2.N) (p : Fin 2000) (k : Fin 256) :
    (iblk2 V c 0 t : S2000x256.Idx → EReal) (ix2 p k) = (V c main_v17 : S50000x256.Idx → EReal) (ix2 (row t p) k) := by
  obtain ⟨e0, e1, -⟩ := idx_facts t
  unfold iblk2
  rw [View.read_apply]
  show V c main_v17 _ = V c main_v17 _
  congr 1
  funext a
  apply Fin.ext
  match a with
  | ⟨0, _⟩ => show win2_0.index t 0 * 2000 + 1 * p.val = t.val * 2000 + p.val; rw [e0]; omega
  | ⟨1, _⟩ => show win2_0.index t 1 * 256 + 1 * k.val = k.val; rw [e1]; omega

/-- The second row-block operand's block at point t, read at (p, k). -/
theorem blk1_apply (c : Dev nD) (t : Fin cfg2.N) (p : Fin 2000) (k : Fin 256) :
    (iblk2 V c 1 t : S2000x256.Idx → EReal) (ix2 p k) = (V c main_v31 : S50000x256.Idx → EReal) (ix2 (row t p) k) := by
  obtain ⟨-, -, e0, e1, -⟩ := idx_facts t
  unfold iblk2
  rw [View.read_apply]
  show V c main_v31 _ = V c main_v31 _
  congr 1
  funext a
  apply Fin.ext
  match a with
  | ⟨0, _⟩ => show win2_1.index t 0 * 2000 + 1 * p.val = t.val * 2000 + p.val; rw [e0]; omega
  | ⟨1, _⟩ => show win2_1.index t 1 * 256 + 1 * k.val = k.val; rw [e1]; omega

/-- The first weight matrix is staged whole. -/
theorem blk2_apply (c : Dev nD) (t : Fin cfg2.N) (k : Fin 256) (q : Fin 51) :
    (iblk2 V c 2 t : S256x51.Idx → EReal) (ix2 k q) = (V c main_v32 : S256x51.Idx → EReal) (ix2 k q) := by
  obtain ⟨-, -, -, -, e0, e1, -⟩ := idx_facts t
  unfold iblk2
  rw [View.read_apply]
  show V c main_v32 _ = V c main_v32 _
  congr 1
  funext a
  apply Fin.ext
  match a with
  | ⟨0, _⟩ => show win2_2.index t 0 * 256 + 1 * k.val = k.val; rw [e0]; omega
  | ⟨1, _⟩ => show win2_2.index t 1 * 51 + 1 * q.val = q.val; rw [e1]; omega

/-- The second weight matrix is staged whole. -/
theorem blk3_apply (c : Dev nD) (t : Fin cfg2.N) (k : Fin 256) (q : Fin 51) :
    (iblk2 V c 3 t : S256x51.Idx → EReal) (ix2 k q) = (V c main_v33 : S256x51.Idx → EReal) (ix2 k q) := by
  obtain ⟨-, -, -, -, -, -, e0, e1, -⟩ := idx_facts t
  unfold iblk2
  rw [View.read_apply]
  show V c main_v33 _ = V c main_v33 _
  congr 1
  funext a
  apply Fin.ext
  match a with
  | ⟨0, _⟩ => show win2_3.index t 0 * 256 + 1 * k.val = k.val; rw [e0]; omega
  | ⟨1, _⟩ => show win2_3.index t 1 * 51 + 1 * q.val = q.val; rw [e1]; omega

/-- The bias is staged whole. -/
theorem blk4_apply (c : Dev nD) (t : Fin cfg2.N) (q : Fin 51) :
    (iblk2 V c 4 t : S51.Idx → EReal) (ix1 q) = (V c main_arg10 : S51.Idx → EReal) (ix1 q) := by
  obtain ⟨-, -, -, -, -, -, -, -, e0, -⟩ := idx_facts t
  unfold iblk2
  rw [View.read_apply]
  show V c main_arg10 _ = V c main_arg10 _
  congr 1
  funext a
  apply Fin.ext
  match a with
  | ⟨0, _⟩ => show win2_4.index t 0 * 51 + 1 * q.val = q.val; rw [e0]; omega

/-- The result array as one function of the arrays the region finds. -/
def G (c : Dev nD) : S50000x51.Idx → EReal :=
  GraphNet.head2 (V c main_v17) (V c main_v31) (V c main_v32) (V c main_v33) (V c main_arg10)

/-- What point t writes back is block t of `G`. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz2]
  simp only [View.ld_unit_zero (S := S2000x256) hz2, View.ld_unit_zero (S := S256x51) hz2, View.ld_unit_zero (S := S51) hz1]
  funext j
  obtain ⟨p, q, rfl⟩ : ∃ (p : Fin 2000) (q : Fin 51), j = ix2 p q := ⟨j 0, j 1, eq_ix2 j⟩
  refine (Body.pay2_ix2 _ _ _ _ _ p q).trans ?_
  obtain ⟨-, -, -, -, -, -, -, -, -, e0, e1⟩ := idx_facts t
  have hemb : ((cfg2.win 5).blk t).view.emb (ix2 p q) = (ix2 (row t p) q : S50000x51.Idx) := by
    funext a
    apply Fin.ext
    match a with
    | ⟨0, _⟩ => show win2_5.index t 0 * 2000 + 1 * p.val = t.val * 2000 + p.val; rw [e0]; omega
    | ⟨1, _⟩ => show win2_5.index t 1 * 51 + 1 * q.val = q.val; rw [e1]; omega
  show _ = G V c (((cfg2.win 5).blk t).view.emb (ix2 p q))
  rw [hemb]
  unfold G
  rw [GraphNet.head2_ix2]
  unfold GraphNet.head2At
  simp only [blk0_apply V c t p, blk1_apply V c t p, blk2_apply V c t, blk3_apply V c t, blk4_apply V c t]

/-- Every index of the result array lies in some point's block: row r in the block of point r / 2000. -/
theorem cover (i : S50000x51.Idx) :
    ∃ t : Fin cfg2.N, (cfg2.win 5).flush t = true ∧ i ∈ ((cfg2.win 5).blk t).view.set := by
  have hN : grid2.N = 25 := N_2
  have hi0 : (i 0).val < 50000 := (i 0).isLt
  have hi1 : (i 1).val < 51 := (i 1).isLt
  let t : Fin cfg2.N := ⟨(i 0).val / 2000, by show (i 0).val / 2000 < grid2.N; omega⟩
  obtain ⟨-, -, -, -, -, -, -, -, -, e0, e1⟩ := idx_facts t
  refine ⟨t, flush2_5 t, ?_⟩
  show i ∈ ((View.whole main_v34).slice (win2_5.rect t)).set
  rw [View.set_slice_whole, Rect.mem_set_unit]
  intro a
  match a with
  | ⟨0, _⟩ =>
    show win2_5.index t 0 * 2000 ≤ (i 0).val ∧ (i 0).val < win2_5.index t 0 * 2000 + 2000
    rw [e0]; show (i 0).val / 2000 * 2000 ≤ (i 0).val ∧ (i 0).val < (i 0).val / 2000 * 2000 + 2000; omega
  | ⟨1, _⟩ =>
    show win2_5.index t 1 * 51 ≤ (i 1).val ∧ (i 1).val < win2_5.index t 1 * 51 + 51
    rw [e1]; omega

/-- The result array after the region is `G` of the arrays the region finds. -/
theorem final (c : Dev nD) : (dat2 V c).arrAt 5 cfg2.N = G V c :=
  (dat2 V c).arrAt_eq_of_cover 5 (G V c) (fun t _ => flushed_eq V c t) (cover)

end Cert.KernelIdeal.Region2

end
-- ==== Proof.Aggregate.lean ====
/-
  Message passing, as the host computes it: every edge e carries the feature row of its source node scaled by the
  edge's weight, and each node sums the rows of the edges that end at it. In the printed programs this is a slice
  of the edge list into sources and destinations, a wrap of negative source indices, a gather of rows, a product
  with the weights spread over the columns, and a scatter-add into an all-zero array. Both programs compute it by
  these same operations, so it is kept here as one opaque function of the feature array.
-/
import proofs.«154335_j32238024524262_1_alg».proof.Proof.Gen.KernelIdeal
import Idealize.ShloMosaic.PureOps.Ideal

noncomputable section

namespace Cert.KernelIdeal.Aggregate

open Cert.KernelIdeal Cert.KernelIdeal.Gen Idealize.ShloMosaic

/-- The edges' source nodes: row 0 of the edge list. -/
def src (ei : IVec S2x800000 32) : IVec S800000 32 :=
  shapeCast _ (extractStridedSlice S1x800000 ![0, 0] ei slices_S2x800000_S1x800000_0_0) shapeCasts_S1x800000_S800000

/-- The edges' destination nodes: row 1 of the edge list. -/
def dst (ei : IVec S2x800000 32) : IVec S800000 32 :=
  shapeCast _ (extractStridedSlice S1x800000 ![1, 0] ei slices_S2x800000_S1x800000_1_0) shapeCasts_S1x800000_S800000

/-- Node indices as the column a gather reads, a negative index counted from the end. -/
def wrap (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The weighted neighbour sum of 128-column features. -/
def agg128 (x : FVec Ideal S50000x128 .f32) (s d : IVec S800000 32) (ew : FVec Ideal S800000 .f32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 d)
    (mulf (Host.gather gather_S50000x128_S800000x1_S800000x128_1_0_n_n_0_1_1128 x (wrap s))
      (broadcastInDim S800000x128 ![0, 1] bcast_S800000x1_S800000x128_0_1 (broadcastInDim S800000x1 ![0] bcast_S800000_S800000x1_0 ew)))

/-- The weighted neighbour sum of 256-column features. -/
def agg256 (h : FVec Ideal S50000x256 .f32) (s d : IVec S800000 32) (ew : FVec Ideal S800000 .f32) : FVec Ideal S50000x256 .f32 :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 d)
    (mulf (Host.gather gather_S50000x256_S800000x1_S800000x256_1_0_n_n_0_1_1256 h (wrap s))
      (broadcastInDim S800000x256 ![0, 1] bcast_S800000x1_S800000x256_0_1 (broadcastInDim S800000x1 ![0] bcast_S800000_S800000x1_0 ew)))

end Cert.KernelIdeal.Aggregate

end
-- ==== Proof.KernelFold.lean ====
/-
  The idealized kernel's result as the network of the argument arrays.

  The buffer contents at the six segment boundaries are a fold from the launch memory: a stretch of host operations
  changes the buffers it writes, a kernel region changes its result array, everything else is carried along. Reading
  the fold backwards from the result buffer: the head's kernel leaves the head formula of the two hidden layers, the
  two halves of the head's weights and its bias; each hidden layer is what a dense kernel leaves, the layer formula of
  the aggregated messages, the layer's input and its weights; the aggregated messages are what the host operations
  before the region compute from the layer's input, the edge list and the edge weights; and every argument array is
  still what it was at launch when it is read.
-/
import proofs.«154335_j32238024524262_1_alg».proof.Proof.Gen.KernelIdeal.Frame
import proofs.«154335_j32238024524262_1_alg».proof.Proof.KernelRegion0
import proofs.«154335_j32238024524262_1_alg».proof.Proof.KernelRegion1
import proofs.«154335_j32238024524262_1_alg».proof.Proof.KernelRegion2
import proofs.«154335_j32238024524262_1_alg».proof.Proof.Aggregate
import proofs.«154335_j32238024524262_1_alg».proof.Proof.Spec
import Idealize.ShloMosaic.Lib.StableHlo.Run
import Idealize.ShloMosaic.Lib.Pipeline.Value

set_option maxRecDepth 16384

noncomputable section

namespace Cert.KernelIdeal.Fold

open Cert.KernelIdeal Cert.KernelIdeal.Gen Cert.KernelIdeal.Aggregate
open Idealize.ShloMosaic Idealize.ShloMosaic.TcCoe Idealize.ShloMosaic.Tactic Idealize.ShloMosaic.ValueIdx
open Idealize.SL.Sem Idealize.ShloMosaic.StableHlo

variable (m : (ℓ : Loc nD τ sig) → Buf (Elt Ideal) ℓ) (ρ : Dev nD → PrngReg)

/-- A buffer that no operation of a stretch writes holds after the stretch what it held before. -/
local macro "keeps" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## Before the first region -/

theorem W1_main_arg0 (c : Dev nD) : W1 m ρ c (Proc.devRef .tc main_arg0) = m ((c.tc : Thread nD τ).loc main_arg0) := by
  show StableHlo.after hostOps0 (W0 m ρ c) (Proc.devRef .tc main_arg0) = W0 m ρ c (Proc.devRef .tc main_arg0)
  keeps hostOps0
theorem W1_main_arg2 (c : Dev nD) : W1 m ρ c (Proc.devRef .tc main_arg2) = m ((c.tc : Thread nD τ).loc main_arg2) := by
  show StableHlo.after hostOps0 (W0 m ρ c) (Proc.devRef .tc main_arg2) = W0 m ρ c (Proc.devRef .tc main_arg2)
  keeps hostOps0
theorem W1_main_arg3 (c : Dev nD) : W1 m ρ c (Proc.devRef .tc main_arg3) = m ((c.tc : Thread nD τ).loc main_arg3) := by
  show StableHlo.after hostOps0 (W0 m ρ c) (Proc.devRef .tc main_arg3) = W0 m ρ c (Proc.devRef .tc main_arg3)
  keeps hostOps0
theorem W1_main_arg4 (c : Dev nD) : W1 m ρ c (Proc.devRef .tc main_arg4) = m ((c.tc : Thread nD τ).loc main_arg4) := by
  show StableHlo.after hostOps0 (W0 m ρ c) (Proc.devRef .tc main_arg4) = W0 m ρ c (Proc.devRef .tc main_arg4)
  keeps hostOps0
theorem W1_main_arg5 (c : Dev nD) : W1 m ρ c (Proc.devRef .tc main_arg5) = m ((c.tc : Thread nD τ).loc main_arg5) := by
  show StableHlo.after hostOps0 (W0 m ρ c) (Proc.devRef .tc main_arg5) = W0 m ρ c (Proc.devRef .tc main_arg5)
  keeps hostOps0
theorem W1_main_arg6 (c : Dev nD) : W1 m ρ c (Proc.devRef .tc main_arg6) = m ((c.tc : Thread nD τ).loc main_arg6) := by
  show StableHlo.after hostOps0 (W0 m ρ c) (Proc.devRef .tc main_arg6) = W0 m ρ c (Proc.devRef .tc main_arg6)
  keeps hostOps0
theorem W1_main_arg7 (c : Dev nD) : W1 m ρ c (Proc.devRef .tc main_arg7) = m ((c.tc : Thread nD τ).loc main_arg7) := by
  show StableHlo.after hostOps0 (W0 m ρ c) (Proc.devRef .tc main_arg7) = W0 m ρ c (Proc.devRef .tc main_arg7)
  keeps hostOps0
theorem W1_main_arg8 (c : Dev nD) : W1 m ρ c (Proc.devRef .tc main_arg8) = m ((c.tc : Thread nD τ).loc main_arg8) := by
  show StableHlo.after hostOps0 (W0 m ρ c) (Proc.devRef .tc main_arg8) = W0 m ρ c (Proc.devRef .tc main_arg8)
  keeps hostOps0
theorem W1_main_arg9 (c : Dev nD) : W1 m ρ c (Proc.devRef .tc main_arg9) = m ((c.tc : Thread nD τ).loc main_arg9) := by
  show StableHlo.after hostOps0 (W0 m ρ c) (Proc.devRef .tc main_arg9) = W0 m ρ c (Proc.devRef .tc main_arg9)
  keeps hostOps0
theorem W1_main_arg10 (c : Dev nD) : W1 m ρ c (Proc.devRef .tc main_arg10) = m ((c.tc : Thread nD τ).loc main_arg10) := by
  show StableHlo.after hostOps0 (W0 m ρ c) (Proc.devRef .tc main_arg10) = W0 m ρ c (Proc.devRef .tc main_arg10)
  keeps hostOps0

/-- The first region's messages: the host operations before it, read at their last result. -/
theorem W1_main_v16 (c : Dev nD) : W1 m ρ c (Proc.devRef .tc main_v16)
    = agg128 (m ((c.tc : Thread nD τ).loc main_arg0)) (src (m ((c.tc : Thread nD τ).loc main_arg1))) (dst (m ((c.tc : Thread nD τ).loc main_arg1))) (m ((c.tc : Thread nD τ).loc main_arg2)) := by
  show StableHlo.after hostOps0 (W0 m ρ c) (Proc.devRef .tc main_v16) = _
  after_results_simp <;> rfl

theorem W1_main_v1 (c : Dev nD) : W1 m ρ c (Proc.devRef .tc main_v1) = src (m ((c.tc : Thread nD τ).loc main_arg1)) := by
  show StableHlo.after hostOps0 (W0 m ρ c) (Proc.devRef .tc main_v1) = _
  after_results_simp <;> rfl

theorem W1_main_v3 (c : Dev nD) : W1 m ρ c (Proc.devRef .tc main_v3) = dst (m ((c.tc : Thread nD τ).loc main_arg1)) := by
  show StableHlo.after hostOps0 (W0 m ρ c) (Proc.devRef .tc main_v3) = _
  after_results_simp <;> rfl

/-! ## The first region, and what it leaves alone -/

/-- The first hidden layer, of the argument arrays. -/
def hidden1 (c : Dev nD) : S50000x256.Idx → EReal :=
  GraphNet.conv (agg128 (m ((c.tc : Thread nD τ).loc main_arg0)) (src (m ((c.tc : Thread nD τ).loc main_arg1))) (dst (m ((c.tc : Thread nD τ).loc main_arg1))) (m ((c.tc : Thread nD τ).loc main_arg2)))
    (m ((c.tc : Thread nD τ).loc main_arg0)) (m ((c.tc : Thread nD τ).loc main_arg3)) (m ((c.tc : Thread nD τ).loc main_arg5)) (m ((c.tc : Thread nD τ).loc main_arg4))

theorem W2_main_v17 (c : Dev nD) : W2 m ρ c (Proc.devRef .tc main_v17) = hidden1 m c := by
  refine (W2_arr m ρ c 5).trans ((Region0.final (V1 m ρ) c).trans ?_)
  unfold Region0.G hidden1
  rw [show V1 m ρ c main_v16 = _ from W1_main_v16 m ρ c, show V1 m ρ c main_arg0 = _ from W1_main_arg0 m ρ c,
    show V1 m ρ c main_arg3 = _ from W1_main_arg3 m ρ c, show V1 m ρ c main_arg5 = _ from W1_main_arg5 m ρ c,
    show V1 m ρ c main_arg4 = _ from W1_main_arg4 m ρ c]

theorem W2_main_v1 (c : Dev nD) : W2 m ρ c (Proc.devRef .tc main_v1) = W1 m ρ c (Proc.devRef .tc main_v1) := W2_of_ne m ρ c main_v1 (by decide)
theorem W2_main_v3 (c : Dev nD) : W2 m ρ c (Proc.devRef .tc main_v3) = W1 m ρ c (Proc.devRef .tc main_v3) := W2_of_ne m ρ c main_v3 (by decide)
theorem W2_main_arg2 (c : Dev nD) : W2 m ρ c (Proc.devRef .tc main_arg2) = W1 m ρ c (Proc.devRef .tc main_arg2) := W2_of_ne m ρ c main_arg2 (by decide)
theorem W2_main_arg6 (c : Dev nD) : W2 m ρ c (Proc.devRef .tc main_arg6) = W1 m ρ c (Proc.devRef .tc main_arg6) := W2_of_ne m ρ c main_arg6 (by decide)
theorem W2_main_arg7 (c : Dev nD) : W2 m ρ c (Proc.devRef .tc main_arg7) = W1 m ρ c (Proc.devRef .tc main_arg7) := W2_of_ne m ρ c main_arg7 (by decide)
theorem W2_main_arg8 (c : Dev nD) : W2 m ρ c (Proc.devRef .tc main_arg8) = W1 m ρ c (Proc.devRef .tc main_arg8) := W2_of_ne m ρ c main_arg8 (by decide)
theorem W2_main_arg9 (c : Dev nD) : W2 m ρ c (Proc.devRef .tc main_arg9) = W1 m ρ c (Proc.devRef .tc main_arg9) := W2_of_ne m ρ c main_arg9 (by decide)
theorem W2_main_arg10 (c : Dev nD) : W2 m ρ c (Proc.devRef .tc main_arg10) = W1 m ρ c (Proc.devRef .tc main_arg10) := W2_of_ne m ρ c main_arg10 (by decide)

/-! ## Between the first two regions -/

theorem W3_main_v30 (c : Dev nD) : W3 m ρ c (Proc.devRef .tc main_v30)
    = agg256 (W2 m ρ c (Proc.devRef .tc main_v17)) (W2 m ρ c (Proc.devRef .tc main_v1)) (W2 m ρ c (Proc.devRef .tc main_v3)) (W2 m ρ c (Proc.devRef .tc main_arg2)) := by
  show StableHlo.after hostOps1 (W2 m ρ c) (Proc.devRef .tc main_v30) = _
  after_results_simp <;> rfl

theorem W3_main_v17 (c : Dev nD) : W3 m ρ c (Proc.devRef .tc main_v17) = W2 m ρ c (Proc.devRef .tc main_v17) := by
  show StableHlo.after hostOps1 (W2 m ρ c) (Proc.devRef .tc main_v17) = W2 m ρ c (Proc.devRef .tc main_v17)
  keeps hostOps1
theorem W3_main_arg6 (c : Dev nD) : W3 m ρ c (Proc.devRef .tc main_arg6) = W2 m ρ c (Proc.devRef .tc main_arg6) := by
  show StableHlo.after hostOps1 (W2 m ρ c) (Proc.devRef .tc main_arg6) = W2 m ρ c (Proc.devRef .tc main_arg6)
  keeps hostOps1
theorem W3_main_arg7 (c : Dev nD) : W3 m ρ c (Proc.devRef .tc main_arg7) = W2 m ρ c (Proc.devRef .tc main_arg7) := by
  show StableHlo.after hostOps1 (W2 m ρ c) (Proc.devRef .tc main_arg7) = W2 m ρ c (Proc.devRef .tc main_arg7)
  keeps hostOps1
theorem W3_main_arg8 (c : Dev nD) : W3 m ρ c (Proc.devRef .tc main_arg8) = W2 m ρ c (Proc.devRef .tc main_arg8) := by
  show StableHlo.after hostOps1 (W2 m ρ c) (Proc.devRef .tc main_arg8) = W2 m ρ c (Proc.devRef .tc main_arg8)
  keeps hostOps1
theorem W3_main_arg9 (c : Dev nD) : W3 m ρ c (Proc.devRef .tc main_arg9) = W2 m ρ c (Proc.devRef .tc main_arg9) := by
  show StableHlo.after hostOps1 (W2 m ρ c) (Proc.devRef .tc main_arg9) = W2 m ρ c (Proc.devRef .tc main_arg9)
  keeps hostOps1
theorem W3_main_arg10 (c : Dev nD) : W3 m ρ c (Proc.devRef .tc main_arg10) = W2 m ρ c (Proc.devRef .tc main_arg10) := by
  show StableHlo.after hostOps1 (W2 m ρ c) (Proc.devRef .tc main_arg10) = W2 m ρ c (Proc.devRef .tc main_arg10)
  keeps hostOps1

/-! ## The second region -/

/-- The second hidden layer, of the argument arrays. -/
def hidden2 (c : Dev nD) : S50000x256.Idx → EReal :=
  GraphNet.conv (agg256 (hidden1 m c) (src (m ((c.tc : Thread nD τ).loc main_arg1))) (dst (m ((c.tc : Thread nD τ).loc main_arg1))) (m ((c.tc : Thread nD τ).loc main_arg2)))
    (hidden1 m c) (m ((c.tc : Thread nD τ).loc main_arg6)) (m ((c.tc : Thread nD τ).loc main_arg8)) (m ((c.tc : Thread nD τ).loc main_arg7))

theorem V3_main_v30 (c : Dev nD) : V3 m ρ c main_v30
    = agg256 (hidden1 m c) (src (m ((c.tc : Thread nD τ).loc main_arg1))) (dst (m ((c.tc : Thread nD τ).loc main_arg1))) (m ((c.tc : Thread nD τ).loc main_arg2)) := by
  show W3 m ρ c (Proc.devRef .tc main_v30) = _
  rw [W3_main_v30, W2_main_v17, W2_main_v1, W2_main_v3, W2_main_arg2, W1_main_v1, W1_main_v3, W1_main_arg2]

theorem V3_main_v17 (c : Dev nD) : V3 m ρ c main_v17 = hidden1 m c := by
  show W3 m ρ c (Proc.devRef .tc main_v17) = _
  rw [W3_main_v17, W2_main_v17]

theorem V3_main_arg6 (c : Dev nD) : V3 m ρ c main_arg6 = m ((c.tc : Thread nD τ).loc main_arg6) := by
  show W3 m ρ c (Proc.devRef .tc main_arg6) = _
  rw [W3_main_arg6, W2_main_arg6, W1_main_arg6]
theorem V3_main_arg7 (c : Dev nD) : V3 m ρ c main_arg7 = m ((c.tc : Thread nD τ).loc main_arg7) := by
  show W3 m ρ c (Proc.devRef .tc main_arg7) = _
  rw [W3_main_arg7, W2_main_arg7, W1_main_arg7]
theorem V3_main_arg8 (c : Dev nD) : V3 m ρ c main_arg8 = m ((c.tc : Thread nD τ).loc main_arg8) := by
  show W3 m ρ c (Proc.devRef .tc main_arg8) = _
  rw [W3_main_arg8, W2_main_arg8, W1_main_arg8]

theorem W4_main_v31 (c : Dev nD) : W4 m ρ c (Proc.devRef .tc main_v31) = hidden2 m c := by
  refine (W4_arr m ρ c 5).trans ((Region1.final (V3 m ρ) c).trans ?_)
  unfold Region1.G hidden2
  rw [V3_main_v30, V3_main_v17, V3_main_arg6, V3_main_arg8, V3_main_arg7]

/-- The first hidden layer is an input of the second region, which leaves it as it finds it. -/
theorem W4_main_v17 (c : Dev nD) : W4 m ρ c (Proc.devRef .tc main_v17) = hidden1 m c :=
  ((W4_arr m ρ c 1).trans (((dat1 (V3 m ρ) c).arrAt_in 1 rfl _).trans (A_eq1 (V3 m ρ) c 1))).trans (V3_main_v17 m ρ c)

theorem W4_main_arg9 (c : Dev nD) : W4 m ρ c (Proc.devRef .tc main_arg9) = m ((c.tc : Thread nD τ).loc main_arg9) := by
  rw [W4_of_ne m ρ c main_arg9 (by decide), W3_main_arg9, W2_main_arg9, W1_main_arg9]
theorem W4_main_arg10 (c : Dev nD) : W4 m ρ c (Proc.devRef .tc main_arg10) = m ((c.tc : Thread nD τ).loc main_arg10) := by
  rw [W4_of_ne m ρ c main_arg10 (by decide), W3_main_arg10, W2_main_arg10, W1_main_arg10]

/-! ## Before the head -/

theorem W5_main_v32 (c : Dev nD) : W5 m ρ c (Proc.devRef .tc main_v32)
    = extractStridedSlice S256x51 ![0, 0] (m ((c.tc : Thread nD τ).loc main_arg9)) slices_S512x51_S256x51_0_0 := by
  rw [← W4_main_arg9 m ρ c]
  show StableHlo.after hostOps2 (W4 m ρ c) (Proc.devRef .tc main_v32) = _
  after_results

theorem W5_main_v33 (c : Dev nD) : W5 m ρ c (Proc.devRef .tc main_v33)
    = extractStridedSlice S256x51 ![256, 0] (m ((c.tc : Thread nD τ).loc main_arg9)) slices_S512x51_S256x51_256_0 := by
  rw [← W4_main_arg9 m ρ c]
  show StableHlo.after hostOps2 (W4 m ρ c) (Proc.devRef .tc main_v33) = _
  after_results

theorem W5_main_v17 (c : Dev nD) : W5 m ρ c (Proc.devRef .tc main_v17) = W4 m ρ c (Proc.devRef .tc main_v17) := by
  show StableHlo.after hostOps2 (W4 m ρ c) (Proc.devRef .tc main_v17) = W4 m ρ c (Proc.devRef .tc main_v17)
  keeps hostOps2
theorem W5_main_v31 (c : Dev nD) : W5 m ρ c (Proc.devRef .tc main_v31) = W4 m ρ c (Proc.devRef .tc main_v31) := by
  show StableHlo.after hostOps2 (W4 m ρ c) (Proc.devRef .tc main_v31) = W4 m ρ c (Proc.devRef .tc main_v31)
  keeps hostOps2
theorem W5_main_arg10 (c : Dev nD) : W5 m ρ c (Proc.devRef .tc main_arg10) = W4 m ρ c (Proc.devRef .tc main_arg10) := by
  show StableHlo.after hostOps2 (W4 m ρ c) (Proc.devRef .tc main_arg10) = W4 m ρ c (Proc.devRef .tc main_arg10)
  keeps hostOps2

/-! ## The head -/

/-- The edge-weighted neighbour sums, as maps of the feature array, at the program's edge list and weights. -/
def A1 (c : Dev nD) : (S50000x128.Idx → EReal) → S50000x128.Idx → EReal :=
  fun x => agg128 x (src (m ((c.tc : Thread nD τ).loc main_arg1))) (dst (m ((c.tc : Thread nD τ).loc main_arg1))) (m ((c.tc : Thread nD τ).loc main_arg2))
def A2 (c : Dev nD) : (S50000x256.Idx → EReal) → S50000x256.Idx → EReal :=
  fun h => agg256 h (src (m ((c.tc : Thread nD τ).loc main_arg1))) (dst (m ((c.tc : Thread nD τ).loc main_arg1))) (m ((c.tc : Thread nD τ).loc main_arg2))

/-- The result buffer after the last segment is the network of the argument arrays. -/
theorem result_eq (c : Dev nD) : W6 m ρ c (Proc.devRef .tc main_v34)
    = GraphNet.net (A1 m c) (A2 m c) (m ((c.tc : Thread nD τ).loc main_arg0)) (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W6_arr m ρ c 5).trans ((Region2.final (V5 m ρ) c).trans ?_)
  unfold Region2.G
  rw [show V5 m ρ c main_v17 = hidden1 m c from (W5_main_v17 m ρ c).trans (W4_main_v17 m ρ c),
    show V5 m ρ c main_v31 = hidden2 m c from (W5_main_v31 m ρ c).trans (W4_main_v31 m ρ c),
    show V5 m ρ c main_v32 = _ from W5_main_v32 m ρ c, show V5 m ρ c main_v33 = _ from W5_main_v33 m ρ c,
    show V5 m ρ c main_arg10 = _ from (W5_main_arg10 m ρ c).trans (W4_main_arg10 m ρ c)]
  refine (GraphNet.head2_eq_head _ _ (m ((c.tc : Thread nD τ).loc main_arg9)) _ _ _ (fun k q => ?_) (fun k q => ?_)).trans rfl
  · refine extractStridedSlice_apply _ _ _ _ _ fun a => ?_
    match a with
    | ⟨0, _⟩ => show k.val = 0 + k.val; omega
    | ⟨1, _⟩ => show q.val = 0 + q.val; omega
  · refine extractStridedSlice_apply _ _ _ _ _ fun a => ?_
    match a with
    | ⟨0, _⟩ => show 256 + k.val = 256 + k.val; rfl
    | ⟨1, _⟩ => show q.val = 0 + q.val; omega

end Cert.KernelIdeal.Fold

end
-- ==== Proof.LibDotRead.lean ====
/-
  The host's matrix product read at an entry, for ANY contraction record of the "rows by columns" form.

  The host's product of an `a × K` by a `K × b` array has no accumulator; at the ideal instance it is the
  accumulating product started from the all-zero block, so its entry `(p, q)` is `Σ_k lhs[p, k] · rhs[k, q]`
  with `k` over `Fin K`. The record is a variable, so one proof serves every host product of this form.
-/
import Idealize.ShloMosaic.Lib.KernelVsHost
import proofs.«154335_j32238024524262_1_alg».proof.Proof.LibMatmulRead

noncomputable section

namespace Idealize.ShloMosaic.MatmulRead

open Idealize.ShloMosaic Idealize.ShloMosaic.ValueIdx
open scoped BigOperators

variable {a K b : ℕ} {D : DotDims (⟨2, ![a, K]⟩ : Shape) (⟨2, ![K, b]⟩ : Shape) (⟨2, ![a, b]⟩ : Shape)}

/-- Entry `(p, q)` of the host's product is `Σ_k lhs[p, k] · rhs[k, q]`. -/
theorem hostDot_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    Host.dotGeneral D prec lhs rhs (ix2 p q) = ∑ k : Fin K, lhs (ix2 p k) * rhs (ix2 k q) := by
  rw [← matmul_zero_eq_dotGeneral]
  exact matmul_zero_ix2 h hr hs prec lhs rhs p q

end Idealize.ShloMosaic.MatmulRead
-- ==== Proof.RefValue.lean ====
/-
  The reference's result as the network of its argument arrays.

  The reference computes each layer as relu((A·W_rel + b) + x·W_root) with whole-array host operations, sets the two
  hidden layers side by side and multiplies by the whole head matrix. Entry by entry: a host product is the sum over
  the contracted axis; the bias spread over the rows reads the bias at the column; the bias may be added before or
  after the second product, since addition of extended reals is commutative and associative; and a sum over the 512
  columns of the joined array is the sum over the first hidden layer's 256 columns plus the sum over the second's.
  The message passing is the same host operations as in the kernel program, so it is the same function.
-/
import proofs.«154335_j32238024524262_1_alg».proof.Proof.Gen.ReferenceIdeal.Read
import proofs.«154335_j32238024524262_1_alg».proof.Proof.LibDotRead
import proofs.«154335_j32238024524262_1_alg».proof.Proof.LibBiasRow
import proofs.«154335_j32238024524262_1_alg».proof.Proof.Aggregate
import proofs.«154335_j32238024524262_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.ValueIdx Idealize.ShloMosaic.MatmulRead
open scoped BigOperators

/-- One layer of the reference, as an array, is the layer formula. -/
theorem layer_eq {K : ℕ} (D : DotDims (⟨2, ![50000, K]⟩ : Shape) ⟨2, ![K, 256]⟩ ⟨2, ![50000, 256]⟩) (hD : RowsByCols D)
    (hr : D.contr.rank = 1) (hs : D.contr.size ⟨0, by omega⟩ = K)
    (agg x : FVec Ideal (⟨2, ![50000, K]⟩ : Shape) .f32) (wrel wroot : FVec Ideal (⟨2, ![K, 256]⟩ : Shape) .f32)
    (b : FVec Ideal (⟨1, ![256]⟩ : Shape) .f32)
    (h1 : (⟨1, ![256]⟩ : Shape).BroadcastsInDim ⟨2, ![1, 256]⟩ ![1])
    (h2 : (⟨2, ![1, 256]⟩ : Shape).BroadcastsInDim ⟨2, ![50000, 256]⟩ ![0, 1])
    (hz : (⟨0, ![]⟩ : Shape).BroadcastsInDim ⟨2, ![50000, 256]⟩ ![]) :
    maximumf (F := Ideal) (addf (addf (Host.dotGeneral D none agg wrel)
        (broadcastInDim ⟨2, ![50000, 256]⟩ ![0, 1] h2 (broadcastInDim ⟨2, ![1, 256]⟩ ![1] h1 b)))
        (Host.dotGeneral D none x wroot))
      (broadcastInDim ⟨2, ![50000, 256]⟩ ![] hz (constant ⟨0, ![]⟩ .f32 0x00000000#32))
    = GraphNet.conv agg x wrel wroot b := by
  funext j
  obtain ⟨p, q, rfl⟩ : ∃ (p : Fin 50000) (q : Fin 256), j = ix2 p q := ⟨j 0, j 1, eq_ix2 j⟩
  rw [GraphNet.conv_ix2]
  unfold GraphNet.convAt
  simp only [maximumf_apply, addf_apply]
  rw [hostDot_ix2 hD hr hs, hostDot_ix2 hD hr hs, Cert.LibBiasRow.bcast_bcast_apply, Cert.LibBiasRow.zeros_apply, add_right_comm]

/-- The reference's head, as an array, is the head formula. -/
theorem head_eq (D : DotDims (⟨2, ![50000, 512]⟩ : Shape) ⟨2, ![512, 51]⟩ ⟨2, ![50000, 51]⟩) (hD : RowsByCols D)
    (hr : D.contr.rank = 1) (hs : D.contr.size ⟨0, by omega⟩ = 512)
    (h1 h2 : FVec Ideal (⟨2, ![50000, 256]⟩ : Shape) .f32) (w : FVec Ideal (⟨2, ![512, 51]⟩ : Shape) .f32)
    (b : FVec Ideal (⟨1, ![51]⟩ : Shape) .f32)
    (hc : Shape.Concatenates [(⟨2, ![50000, 256]⟩ : Shape), ⟨2, ![50000, 256]⟩] ⟨2, ![50000, 512]⟩ 1)
    (hb1 : (⟨1, ![51]⟩ : Shape).BroadcastsInDim ⟨2, ![1, 51]⟩ ![1])
    (hb2 : (⟨2, ![1, 51]⟩ : Shape).BroadcastsInDim ⟨2, ![50000, 51]⟩ ![0, 1]) :
    addf (F := Ideal) (Host.dotGeneral D none
        (concatenate ⟨2, ![50000, 512]⟩ 1 [⟨⟨2, ![50000, 256]⟩, h1⟩, ⟨⟨2, ![50000, 256]⟩, h2⟩] hc) w)
      (broadcastInDim ⟨2, ![50000, 51]⟩ ![0, 1] hb2 (broadcastInDim ⟨2, ![1, 51]⟩ ![1] hb1 b))
    = GraphNet.head h1 h2 w b := by
  funext j
  obtain ⟨p, q, rfl⟩ : ∃ (p : Fin 50000) (q : Fin 51), j = ix2 p q := ⟨j 0, j 1, eq_ix2 j⟩
  rw [GraphNet.head_ix2]
  unfold GraphNet.headAt
  simp only [addf_apply]
  rw [hostDot_ix2 hD hr hs, Cert.LibBiasRow.bcast_bcast_apply, GraphNet.sum_halves]
  congr 2
  · refine Finset.sum_congr rfl fun k _ => ?_
    congr 1
    refine concatenate_pair_apply_left 1 h1 h2 hc _ rfl (ix2 p k) fun a => ?_
    match a with
    | ⟨0, _⟩ => rfl
    | ⟨1, _⟩ => rfl
  · refine Finset.sum_congr rfl fun k _ => ?_
    congr 1
    refine concatenate_pair_apply_right 1 h1 h2 hc _ rfl rfl (ix2 p k) (fun a ha => ?_) ?_
    · match a with
      | ⟨0, _⟩ => rfl
      | ⟨1, _⟩ => exact absurd rfl ha
    · show k.val + 256 = 256 + k.val
      omega

open Cert.KernelIdeal.Aggregate in
/-- The reference's first aggregation is the kernel program's. -/
theorem agg1_eq (x0 : (⟨S50000x128, .f32⟩ : BufTy).Contents (Elt Ideal)) (x1 : (⟨S2x800000, .i32⟩ : BufTy).Contents (Elt Ideal))
    (x2 : (⟨S800000, .f32⟩ : BufTy).Contents (Elt Ideal)) :
    val_main_v16 (F := Ideal) x0 x1 x2 = agg128 x0 (src x1) (dst x1) x2 := rfl

/-- The reference's first hidden layer. -/
theorem hidden1_eq (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S128x256, .f32⟩ : BufTy).Contents (Elt Ideal))
    (x4 : (⟨S256, .f32⟩ : BufTy).Contents (Elt Ideal)) (x5 : (⟨S128x256, .f32⟩ : BufTy).Contents (Elt Ideal)) :
    val_main_v23 (F := Ideal) x0 x1 x2 x3 x4 x5 = GraphNet.conv (val_main_v16 (F := Ideal) x0 x1 x2) x0 x3 x5 x4 := by
  unfold val_main_v23 val_main_v22 val_main_v21 val_main_v20 val_main_v19 val_main_v18 val_main_v17 val_main_call0_v0 val_main_call0_cst
  exact layer_eq dot_S50000x128_S128x256_S50000x256_1_0_0_1_n_n ⟨rfl, rfl, rfl, rfl, rfl, rfl⟩ rfl rfl _ _ _ _ _ _ _ _

open Cert.KernelIdeal.Aggregate in
/-- The reference's second aggregation is the kernel program's, of the first hidden layer. -/
theorem agg2_eq (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S128x256, .f32⟩ : BufTy).Contents (Elt Ideal))
    (x4 : (⟨S256, .f32⟩ : BufTy).Contents (Elt Ideal)) (x5 : (⟨S128x256, .f32⟩ : BufTy).Contents (Elt Ideal)) :
    val_main_v40 (F := Ideal) x0 x1 x2 x3 x4 x5 = agg256 (val_main_v23 (F := Ideal) x0 x1 x2 x3 x4 x5) (src x1) (dst x1) x2 := rfl

/-- The reference's second hidden layer. -/
theorem hidden2_eq (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x256, .f32⟩ : BufTy).Contents (Elt Ideal)) (x4 : (⟨S256, .f32⟩ : BufTy).Contents (Elt Ideal)) (x5 : (⟨S128x256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) :
    val_main_v47 (F := Ideal) x0 x1 x2 x3 x4 x5 x6 x7 x8
      = GraphNet.conv (val_main_v40 (F := Ideal) x0 x1 x2 x3 x4 x5) (val_main_v23 (F := Ideal) x0 x1 x2 x3 x4 x5) x6 x8 x7 := by
  unfold val_main_v47 val_main_v46 val_main_v45 val_main_v44 val_main_v43 val_main_v42 val_main_v41 val_main_call1_v0 val_main_call1_cst
  exact layer_eq dot_S50000x256_S256x256_S50000x256_1_0_0_1_n_n ⟨rfl, rfl, rfl, rfl, rfl, rfl⟩ rfl rfl _ _ _ _ _ _ _ _

open Cert.KernelIdeal.Aggregate in
/-- The reference's result is the network of its arguments, with the kernel program's aggregation maps. -/
theorem result_eq (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x256, .f32⟩ : BufTy).Contents (Elt Ideal)) (x4 : (⟨S256, .f32⟩ : BufTy).Contents (Elt Ideal)) (x5 : (⟨S128x256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S512x51, .f32⟩ : BufTy).Contents (Elt Ideal)) (x10 : (⟨S51, .f32⟩ : BufTy).Contents (Elt Ideal)) :
    val_main_v52 (F := Ideal) x0 x1 x2 x3 x4 x5 x6 x7 x8 x9 x10
      = GraphNet.net (fun x => agg128 x (src x1) (dst x1) x2) (fun h => agg256 h (src x1) (dst x1) x2)
          x0 x3 x4 x5 x6 x7 x8 x9 x10 := by
  unfold val_main_v52 val_main_v51 val_main_v50 val_main_v49 val_main_v48
  rw [head_eq dot_S50000x512_S512x51_S50000x51_1_0_0_1_n_n ⟨rfl, rfl, rfl, rfl, rfl, rfl⟩ rfl rfl,
    hidden2_eq, agg2_eq, hidden1_eq, agg1_eq]
  rfl

end Cert.ReferenceIdeal.RefValue

end
-- ==== Proof.lean ====
/-
  A two-layer graph network with a linear head: the Pallas program against its plain reference, as extended reals.

  Each layer is relu(A(x)·W_rel + x·W_root + b), where A(x) sums over each node's incoming edges the source node's
  row scaled by the edge weight; the head multiplies the two hidden layers, side by side, by one 512-row matrix and
  adds a bias. The kernel program computes A(x) on the host, each layer's dense half in a kernel tiled over blocks
  of 2000 rows, and the head in a third kernel fed with the upper and lower halves of the head matrix; the reference
  computes everything with whole-array host operations, adding the bias before the root product and multiplying the
  joined hidden layers by the whole matrix.

  On the extended reals a change of float format is the identity and every product is the plain sum over the
  contracted axis, so both programs' results are, entry by entry, one and the same expression up to the order of
  two additions and the splitting of a 512-term sum into its two halves: addition of extended reals is commutative
  and associative, and no finiteness of the inputs is needed. The message passing A is the same sequence of host
  operations in both programs and is never opened.

  The three frames are the generated ones (the reference's is its generated run with the result dropped); the
  idealization rewrote nothing, so there is nothing to preserve; the value claim joins the kernel program's run with
  its result named (the segments' fold read back to the arguments) to the reference's generated run.
-/
import proofs.«154335_j32238024524262_1_alg».proof.Defs
import proofs.«154335_j32238024524262_1_alg».proof.Proof.Gen.Kernel
import proofs.«154335_j32238024524262_1_alg».proof.Proof.Gen.Kernel.Skeleton
import proofs.«154335_j32238024524262_1_alg».proof.Proof.Gen.Kernel.Launch
import proofs.«154335_j32238024524262_1_alg».proof.Proof.Gen.Kernel.Points
import proofs.«154335_j32238024524262_1_alg».proof.Proof.Gen.Kernel.Frame
import proofs.«154335_j32238024524262_1_alg».proof.Proof.Gen.KernelIdeal
import proofs.«154335_j32238024524262_1_alg».proof.Proof.Gen.KernelIdeal.Skeleton
import proofs.«154335_j32238024524262_1_alg».proof.Proof.Gen.KernelIdeal.Launch
import proofs.«154335_j32238024524262_1_alg».proof.Proof.Gen.KernelIdeal.Points
import proofs.«154335_j32238024524262_1_alg».proof.Proof.Gen.KernelIdeal.Frame
import proofs.«154335_j32238024524262_1_alg».proof.Proof.Gen.ReferenceIdeal
import proofs.«154335_j32238024524262_1_alg».proof.Proof.Gen.Pre_finite_inputs
import proofs.«154335_j32238024524262_1_alg».proof.Proof.Gen.ReferenceIdeal.Run
import proofs.«154335_j32238024524262_1_alg».proof.Proof.Gen.ReferenceIdeal.Read
import proofs.«154335_j32238024524262_1_alg».proof.Proof.KernelRun
import proofs.«154335_j32238024524262_1_alg».proof.Proof.KernelFold
import proofs.«154335_j32238024524262_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run keeps its arguments; drop what it says of the result. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the network of the (agreeing) argument arrays in their result buffers. -/
theorem algebraic : Cert.algebraic_KernelIdeal_ReferenceIdeal := by
  intro m ρ m' ρ' _ hagree
  refine ⟨fun c => GraphNet.net (Cert.KernelIdeal.Fold.A1 m c) (Cert.KernelIdeal.Fold.A2 m c)
      (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Fold.result_eq m ρ c), (h c).2⟩)
      (Cert.KernelIdeal.Run.run_named m ρ)
  · refine (θ_run Cert.ReferenceIdeal.defs _ _).mono (fun _ h c => ⟨?_, (h c).2⟩)
      (Cert.ReferenceIdeal.Value.run (F := Ideal) m' ρ')
    obtain ⟨e0, e1, e2, e3, e4, e5, e6, e7, e8, e9, e10⟩ := hagree c
    rw [(h c).1, Cert.ReferenceIdeal.Read.val_main_v52_eq, Cert.ReferenceIdeal.RefValue.result_eq,
      e0, e1, e2, e3, e4, e5, e6, e7, e8, e9, e10]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
